-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Payload.lean ====
/-
  The kernel body's arithmetic, read at one entry of the 1024 × 1024 block, over the extended reals.

  At a grid point the body holds a block `A` of the left operand (rows × contraction), a block `B` of the right operand
  (contraction × columns) and the accumulator block `acc`.  It stores `acc + A · B`; at the first point of a run of the
  contraction axis it first overwrites the accumulator with the zero block.  On the extended reals the matrix product
  into a zero accumulator is the plain sum of products over the contraction index, so entry `(p, q)` of what is stored
  is `acc (p, q) + ∑ k, A (p, k) * B (k, q)`.
-/
import proofs.«139036_j5970004542088_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The block a run starts from is zero at every entry. -/
theorem zero_apply (y : S1024x1024.Idx) : k0_pay1 (F := Ideal) y = 0 :=
  Ideal.ofBits_zero_f32

/-- The left operand's index for output entry `(p, q)` and contraction coordinate `k` is `(p, k)`; the right
    operand's is `(k, q)`. -/
theorem lhs_idx (p q : Fin 1024) (k : Fin 1024) :
    dot_S1024x1024_S1024x1024_S1024x1024_1_0_0_1_n_n.lhsIdx (ix2 p q)
      ((contrEquiv1 dot_S1024x1024_S1024x1024_S1024x1024_1_0_0_1_n_n 1024 rfl rfl).symm k) = ix2 p k := by
  have hk := contrEquiv1_symm_val dot_S1024x1024_S1024x1024_S1024x1024_1_0_0_1_n_n 1024 rfl rfl k
  funext a
  apply Fin.ext
  match a with
  | ⟨0, _⟩ =>
    show (dot_S1024x1024_S1024x1024_S1024x1024_1_0_0_1_n_n.lhsIdx (ix2 p q) _ 0).val = p.val
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  | ⟨1, _⟩ =>
    exact (dot_S1024x1024_S1024x1024_S1024x1024_1_0_0_1_n_n.lhsIdx_val_of_single rfl (ix2 p q) _).trans hk

theorem rhs_idx (p q : Fin 1024) (k : Fin 1024) :
    dot_S1024x1024_S1024x1024_S1024x1024_1_0_0_1_n_n.rhsIdx (ix2 p q)
      ((contrEquiv1 dot_S1024x1024_S1024x1024_S1024x1024_1_0_0_1_n_n 1024 rfl rfl).symm k) = ix2 k q := by
  have hk := contrEquiv1_symm_val dot_S1024x1024_S1024x1024_S1024x1024_1_0_0_1_n_n 1024 rfl rfl k
  funext a
  apply Fin.ext
  match a with
  | ⟨0, _⟩ =>
    exact (dot_S1024x1024_S1024x1024_S1024x1024_1_0_0_1_n_n.rhsIdx_val_of_single rfl (ix2 p q) _).trans hk
  | ⟨1, _⟩ =>
    show (dot_S1024x1024_S1024x1024_S1024x1024_1_0_0_1_n_n.rhsIdx (ix2 p q) _ 1).val = q.val
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl

/-- The product of two blocks into the zero accumulator, at entry `(p, q)`: the sum over the contraction coordinate of
    the products. -/
theorem product_apply (A B : FVec Ideal S1024x1024 .bf16) (p q : Fin 1024) :
    matmul (F := Ideal) dot_S1024x1024_S1024x1024_S1024x1024_1_0_0_1_n_n none A B (constant S1024x1024 .f32 0x00000000#32) (ix2 p q)
      = ∑ k : Fin 1024, A (ix2 p k) * B (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  rw [lhs_idx, rhs_idx]

/-- What the body stores, at entry `(p, q)`: the accumulator's entry plus the products' sum. -/
theorem step_apply (acc : Vec Ideal S1024x1024 .f32) (A B : Vec Ideal S1024x1024 .bf16) (p q : Fin 1024) :
    k0_pay2 (F := Ideal) acc A B (ix2 p q) = acc (ix2 p q) + ∑ k : Fin 1024, A (ix2 p k) * B (ix2 k q) := by
  unfold k0_pay2
  simp only [shapeCast_self]
  exact congrArg (acc (ix2 p q) + ·) (product_apply A B p q)

end Cert.KernelIdeal.Payload

end
-- ==== Proof.Blocks.lean ====
/-
  The operand blocks a grid point works on, read entry by entry off the two argument arrays.

  The grid has 8 × 4 × 4 points, visited in row-major order, so point `t` has row-block `t / 16`, column-block
  `t / 4 % 4` and contraction-block `t % 4`.  The left operand's block at `t` is rows `1024 · (t / 16) …` and columns
  `1024 · (t % 4) …` of the first argument; the right operand's is rows `1024 · (t % 4) …` and columns
  `1024 · (t / 4 % 4) …` of the second.  Before the call the program narrows both arguments' format; on the extended
  reals a change of format is the identity, so the arrays the call reads are the arguments themselves.
-/
import proofs.«139036_j5970004542088_2_alg».proof.Proof.Gen.KernelIdeal.Frame
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The left operand's array, as the call finds it, is the first argument. -/
theorem left_array (c : Dev nD) :
    (V m c main_v0 : S8192x4096.Idx → EReal) = m ((c : Thread nD τ).loc main_arg0) := by
  dsimp only [Gen.V, Gen.hostOps0]
  after_results
  rfl

/-- The right operand's array, as the call finds it, is the second argument. -/
theorem right_array (c : Dev nD) :
    (V m c main_v1 : S4096x4096.Idx → EReal) = m ((c : Thread nD τ).loc main_arg1) := by
  dsimp only [Gen.V, Gen.hostOps0]
  after_results
  rfl

/-- The block numbers of the two operand windows at every grid point. -/
theorem index_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4 :=
  (by decide +kernel : ∀ t : Fin grid0.N, _)

/-- Entry `(p, k)` of the left block at point `t` is entry `(r, kk)` of the first argument, where `r` is row `p` of
    row-block `t / 16` and `kk` is column `k` of contraction-block `t % 4`. -/
theorem left_block (c : Dev nD) (t : Fin cfg0.N) (p k : Fin 1024) (r : Fin 8192) (kk : Fin 4096)
    (hr : r.val = t.val / 16 * 1024 + p.val) (hk : kk.val = t.val % 4 * 1024 + k.val) :
    (iblk m c 0 t : Vec Ideal S1024x1024 .bf16) (ix2 p k) = m ((c : Thread nD τ).loc main_arg0) (ix2 r kk) := by
  obtain ⟨e0, e1, -, -⟩ := index_facts t
  show V m c main_v0 (((cfg0.win 0).blk t).view.emb (ix2 p k)) = _
  rw [left_array]
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * k.val = kk.val; omega

/-- Entry `(k, q)` of the right block at point `t` is entry `(kk, s)` of the second argument, where `kk` is row `k` of
    contraction-block `t % 4` and `s` is column `q` of column-block `t / 4 % 4`. -/
theorem right_block (c : Dev nD) (t : Fin cfg0.N) (k q : Fin 1024) (kk s : Fin 4096)
    (hk : kk.val = t.val % 4 * 1024 + k.val) (hs : s.val = t.val / 4 % 4 * 1024 + q.val) :
    (iblk m c 1 t : Vec Ideal S1024x1024 .bf16) (ix2 k q) = m ((c : Thread nD τ).loc main_arg1) (ix2 kk s) := by
  obtain ⟨-, -, e2, e3⟩ := index_facts t
  show V m c main_v1 (((cfg0.win 1).blk t).view.emb (ix2 k q)) = _
  rw [right_array]
  refine congrArg _ (funext fun a => Fin.ext ?_)
  match a with
  | ⟨0, _⟩ => show win0_1.index t (0 : Fin 2) * 1024 + 1 * k.val = kk.val; omega
  | ⟨1, _⟩ => show win0_1.index t (1 : Fin 2) * 1024 + 1 * q.val = s.val; omega

end Cert.KernelIdeal.Blocks

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.KernelValue.lean ====
/-
  What the kernel leaves in the result array, entry by entry, over the extended reals: the matrix product.

  Entry `(r, s)` of the result lies in the output block with row-block `r / 1024` and column-block `s / 1024`.  That
  block is accumulated over the run of four consecutive grid points `b, b + 1, b + 2, b + 3` with
  `b = 4 · (4 · (r / 1024) + s / 1024)`: the first point starts from the zero block, and point `b + j` adds the product of
  the left operand's block (row-block `r / 1024`, contraction-block `j`) with the right operand's block
  (contraction-block `j`, column-block `s / 1024`).  So the entry ends as

      0 + ∑_{k < 1024} X (r, k) · P (k, s) + ∑_{k < 1024} X (r, 1024 + k) · P (1024 + k, s) + … (four blocks),

  which is `∑_{kk < 4096} X (r, kk) · P (kk, s)` cut into four consecutive blocks of 1024 summands.  Only associativity
  and commutativity of addition are used, so nothing is asked of the entries: they may be infinite.
-/
import proofs.«139036_j5970004542088_2_alg».proof.Proof.Gen.KernelIdeal.Value
import proofs.«139036_j5970004542088_2_alg».proof.Proof.Payload
import proofs.«139036_j5970004542088_2_alg».proof.Proof.Blocks
import proofs.«139036_j5970004542088_2_alg».proof.Proof.LibSumBlocks

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The fold over a run of four points, spelled out: the reset at the first point, then three steps. -/
theorem fold_four {α : Type*} {N : ℕ} (a : (n : ℕ) → n < N → α) (g : (n : ℕ) → n < N → α → α) (b : ℕ) (h : b + 3 < N) :
    Pipeline.accAt a g b 3 h
      = g (b + 3) h (g (b + 2) (by omega) (g (b + 1) (by omega) (a b (by omega)))) := rfl

/-- The two arguments and the two operand blocks of point `n`, as arrays of extended reals. -/
abbrev argX (c : Dev nD) : S8192x4096.Idx → EReal := m ((c : Thread nD τ).loc main_arg0)
abbrev argP (c : Dev nD) : S4096x4096.Idx → EReal := m ((c : Thread nD τ).loc main_arg1)
abbrev leftBlk (c : Dev nD) (n : ℕ) (h : n < cfg0.N) : S1024x1024.Idx → EReal := iblk m c 0 ⟨n, h⟩
abbrev rightBlk (c : Dev nD) (n : ℕ) (h : n < cfg0.N) : S1024x1024.Idx → EReal := iblk m c 1 ⟨n, h⟩
/-- The result array after the run, as an array of extended reals. -/
abbrev result (c : Dev nD) : S8192x4096.Idx → EReal := Value.G2 (F := Ideal) m c

/-- The product of the two operand blocks of point `n`, at entry `(p, q)` of the output block. -/
def blockTerm (c : Dev nD) (n : ℕ) (h : n < cfg0.N) (p q : Fin 1024) : EReal :=
  ∑ k : Fin 1024, leftBlk m c n h (ix2 p k) * rightBlk m c n h (ix2 k q)

/-- After the four points of a run the output block's entry `(p, q)` is zero plus the four points' block products. -/
theorem fold_apply (c : Dev nD) (b : ℕ) (h : b + 3 < cfg0.N) (p q : Fin 1024) :
    Pipeline.accAt (Value.reset2 m c) (Value.step2 m c) b 3 h (ix2 p q)
      = 0 + blockTerm m c b (by omega) p q + blockTerm m c (b + 1) (by omega) p q
          + blockTerm m c (b + 2) (by omega) p q + blockTerm m c (b + 3) h p q := by
  rw [fold_four]
  unfold Value.step2 Value.reset2
  refine (Payload.step_apply _ (iblk m c 0 ⟨b + 3, h⟩) (iblk m c 1 ⟨b + 3, h⟩) p q).trans ?_
  refine congrArg (· + blockTerm m c (b + 3) h p q) ?_
  refine (Payload.step_apply _ (iblk m c 0 ⟨b + 2, by omega⟩) (iblk m c 1 ⟨b + 2, by omega⟩) p q).trans ?_
  refine congrArg (· + blockTerm m c (b + 2) (by omega) p q) ?_
  refine (Payload.step_apply _ (iblk m c 0 ⟨b + 1, by omega⟩) (iblk m c 1 ⟨b + 1, by omega⟩) p q).trans ?_
  refine congrArg (· + blockTerm m c (b + 1) (by omega) p q) ?_
  refine (Payload.step_apply _ (iblk m c 0 ⟨b, by omega⟩) (iblk m c 1 ⟨b, by omega⟩) p q).trans ?_
  exact congrArg (· + blockTerm m c b (by omega) p q) (Payload.zero_apply (ix2 p q))

/-- The block product of point `n` of the run that accumulates entry `(r, s)`, read off the arguments: the
    `j`-th block of 1024 summands of the entry's contraction sum, `j = n % 4`. -/
theorem blockTerm_eq (c : Dev nD) (n : ℕ) (h : n < cfg0.N) (p q : Fin 1024) (r : Fin 8192) (s : Fin 4096) (j : Fin 4)
    (hr : r.val = n / 16 * 1024 + p.val) (hs : s.val = n / 4 % 4 * 1024 + q.val) (hj : n % 4 = j.val) :
    blockTerm m c n h p q
      = ∑ k : Fin 1024, argX m c (ix2 r (SumBlocks.idx (show 4 * 1024 = 4096 from rfl) j k))
          * argP m c (ix2 (SumBlocks.idx (show 4 * 1024 = 4096 from rfl) j k) s) := by
  unfold blockTerm
  refine Finset.sum_congr rfl fun k _ => ?_
  have hk : (SumBlocks.idx (show 4 * 1024 = 4096 from rfl) j k).val = n % 4 * 1024 + k.val := by
    rw [SumBlocks.idx_val, hj]
  exact congrArg₂ (· * ·)
    (Blocks.left_block m c ⟨n, h⟩ p k r _ hr hk)
    (Blocks.right_block m c ⟨n, h⟩ k q _ s hk hs)

/-- THE KERNEL'S RESULT at entry `(r, s)`: the sum over the whole contraction axis of the arguments' products. -/
theorem result_apply (c : Dev nD) (r : Fin 8192) (s : Fin 4096) :
    result m c (ix2 r s) = ∑ kk : Fin 4096, argX m c (ix2 r kk) * argP m c (ix2 kk s) := by
  have hr := r.isLt
  have hs := s.isLt
  have hN : cfg0.N = 128 := N_0
  have hrun : Value.run2Of (ix2 r s) = 4 * (r.val / 1024) + s.val / 1024 := by
    show 4 * (r.val / 1024 - 0) + 1 * (s.val / 1024 - 0) = _
    omega
  obtain ⟨p, hp⟩ : ∃ p : Fin 1024, p.val = r.val % 1024 := ⟨⟨r.val % 1024, Nat.mod_lt _ (by decide)⟩, rfl⟩
  obtain ⟨q, hq⟩ : ∃ q : Fin 1024, q.val = s.val % 1024 := ⟨⟨s.val % 1024, Nat.mod_lt _ (by decide)⟩, rfl⟩
  have hloc : Value.loc2Of (ix2 r s) = ix2 p q :=
    funext fun a => Fin.ext (by
      match a with
      | ⟨0, _⟩ => exact hp.symm
      | ⟨1, _⟩ => exact hq.symm)
  have hlt : 4 * Value.run2Of (ix2 r s) + 3 < cfg0.N := by rw [hrun, hN]; omega
  show Value.G2 (F := Ideal) m c (ix2 r s) = _
  unfold Value.G2
  rw [dif_pos hlt, hloc, fold_apply, zero_add, SumBlocks.sum_eq (show 4 * 1024 = 4096 from rfl), Fin.sum_univ_four]
  refine congrArg₂ (· + ·) (congrArg₂ (· + ·) (congrArg₂ (· + ·) ?_ ?_) ?_) ?_
  · exact blockTerm_eq m c _ _ p q r s 0 (by show r.val = _; rw [hrun]; omega) (by show s.val = _; rw [hrun]; omega)
      (by show _ = 0; rw [hrun]; omega)
  · exact blockTerm_eq m c _ _ p q r s 1 (by show r.val = _; rw [hrun]; omega) (by show s.val = _; rw [hrun]; omega)
      (by show _ = 1; rw [hrun]; omega)
  · exact blockTerm_eq m c _ _ p q r s 2 (by show r.val = _; rw [hrun]; omega) (by show s.val = _; rw [hrun]; omega)
      (by show _ = 2; rw [hrun]; omega)
  · exact blockTerm_eq m c _ _ p q r s 3 (by show r.val = _; rw [hrun]; omega) (by show s.val = _; rw [hrun]; omega)
      (by show _ = 3; rw [hrun]; omega)

end Cert.KernelIdeal.KernelValue

end
-- ==== Proof.Reference.lean ====
/-
  The reference's result, entry by entry, over the extended reals.

  The reference is one matrix product of the two arguments.  On the extended reals its entry `(r, s)` is the sum over the
  whole contraction axis of the products `X (r, kk) · P (kk, s)` — the generated reading of the operation, with the
  operands' indices written by their coordinates.
-/
import proofs.«139036_j5970004542088_2_alg».proof.Proof.Gen.ReferenceIdeal.Read

noncomputable section

open scoped BigOperators

namespace Cert.ReferenceIdeal.RefValue

open Cert.ReferenceIdeal Cert.ReferenceIdeal.Gen Idealize.ShloMosaic Idealize.ShloMosaic.ValueIdx

/-- Entry `(r, s)` of the reference's product is `∑ kk, X (r, kk) · P (kk, s)`. -/
theorem product_apply (X : FVec Ideal S8192x4096 .f32) (P : FVec Ideal S4096x4096 .f32) (r : Fin 8192) (s : Fin 4096) :
    Host.dotGeneral (F := Ideal) dot_S8192x4096_S4096x4096_S8192x4096_1_0_0_1_n_n none X P (ix2 r s)
      = ∑ kk : Fin 4096, X (ix2 r kk) * P (ix2 kk s) := by
  rw [Read.val_main_v0_eq, Read.val_main_v0_apply]
  refine Finset.sum_congr rfl fun kk _ => ?_
  have el : Read.lidx_main_v0 (ix2 r s) kk = ix2 r kk :=
    funext fun a => by match a with | ⟨0, _⟩ => rfl | ⟨1, _⟩ => rfl
  have er : Read.ridx_main_v0 (ix2 r s) kk = ix2 kk s :=
    funext fun a => by match a with | ⟨0, _⟩ => rfl | ⟨1, _⟩ => rfl
  rw [el, er]

end Cert.ReferenceIdeal.RefValue

end
-- ==== Proof.lean ====
/-
  The certificate's claim for the K-blocked matrix product against one whole matrix product.

  THE KERNEL.  `x` is 8192 × 4096 and `perm` is 4096 × 4096.  The call tiles the result into 8 × 4 blocks of
  1024 × 1024 and the contraction axis into 4 blocks of 1024; it visits the 8 × 4 × 4 grid points in row-major
  order.  Each output block is accumulated over the four consecutive points of its contraction run: the first point
  overwrites the block with zero, and every point adds the product of the matching 1024 × 1024 blocks of `x` and
  `perm`.  Both arguments are narrowed to a shorter float format before the call, which on the extended reals is the
  identity.

  THE REFERENCE is one matrix product of the two arguments.

  THE LAW JOINING THEM.  On the extended reals entry `(r, s)` of the kernel's result is
  `0 + ∑_{k<1024} x (r, k) · perm (k, s) + … + ∑_{k<1024} x (r, 3072 + k) · perm (3072 + k, s)`
  (Proof/KernelValue.lean) and the reference's is `∑_{kk<4096} x (r, kk) · perm (kk, s)` (Proof/Reference.lean).  A sum
  over 4096 indices is the sum of its four consecutive blocks of 1024 (Proof/LibSumBlocks.lean), which needs only that
  addition is associative and commutative — true of the extended reals with their infinities — so the precondition
  (finite inputs) is never opened.

  The three frame claims are the programs' generated runs with the results dropped; the idealized kernel differs from
  the printed one by no rewrite, so the conjunct relating the two is trivial.
-/
import proofs.«139036_j5970004542088_2_alg».proof.Defs
import proofs.«139036_j5970004542088_2_alg».proof.Proof.Gen.Kernel.Frame
import proofs.«139036_j5970004542088_2_alg».proof.Proof.Gen.KernelIdeal.Value
import proofs.«139036_j5970004542088_2_alg».proof.Proof.Gen.Pre_finite_inputs
import proofs.«139036_j5970004542088_2_alg».proof.Proof.Gen.ReferenceIdeal.Run
import proofs.«139036_j5970004542088_2_alg».proof.Proof.Gen.ReferenceIdeal.Read
import proofs.«139036_j5970004542088_2_alg».proof.Proof.KernelValue
import proofs.«139036_j5970004542088_2_alg».proof.Proof.Reference
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- The reference's product of the arguments is the kernel's result array: at every entry both are the sum over the
    whole contraction axis of the arguments' products. -/
theorem product_eq_result (m : (ℓ : Loc Cert.KernelIdeal.nD Cert.KernelIdeal.τ Cert.KernelIdeal.sig) → Buf (Elt Ideal) ℓ)
    (c : Dev Cert.KernelIdeal.nD) :
    Host.dotGeneral (F := Ideal) (φ₁ := .f32) (φ₂ := .f32) Cert.ReferenceIdeal.dot_S8192x4096_S4096x4096_S8192x4096_1_0_0_1_n_n none
        (Cert.KernelIdeal.KernelValue.argX m c) (Cert.KernelIdeal.KernelValue.argP m c)
      = Cert.KernelIdeal.KernelValue.result m c := by
  funext i
  obtain ⟨r, s, rfl⟩ : ∃ (r : Fin 8192) (s : Fin 4096), i = ValueIdx.ix2 r s := ⟨i 0, i 1, ValueIdx.eq_ix2 i⟩
  exact (Cert.ReferenceIdeal.RefValue.product_apply _ _ r s).trans (Cert.KernelIdeal.KernelValue.result_apply m c r s).symm

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact product_eq_result m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
